-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S10000x64 : Shape := ⟨2, ![10000, 64]⟩
abbrev S200x10000 : Shape := ⟨2, ![200, 10000]⟩
abbrev S200x64 : Shape := ⟨2, ![200, 64]⟩
abbrev S10000x16 : Shape := ⟨2, ![10000, 16]⟩
abbrev S400x10000 : Shape := ⟨2, ![400, 10000]⟩
abbrev S400x16 : Shape := ⟨2, ![400, 16]⟩
abbrev S400x64 : Shape := ⟨2, ![400, 64]⟩

abbrev nBuf : Space → Nat
  | .hbm => 16
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S1x64, .f32⟩
  | .hbm, ⟨9, _⟩ => ⟨S1x64, .f32⟩
  | .hbm, ⟨10, _⟩ => ⟨S1x16, .f32⟩
  | .hbm, ⟨11, _⟩ => ⟨S10000x64, .bf16⟩
  | .hbm, ⟨12, _⟩ => ⟨S10000x10000, .bf16⟩
  | .hbm, ⟨13, _⟩ => ⟨S10000x64, .bf16⟩
  | .hbm, ⟨14, _⟩ => ⟨S10000x16, .bf16⟩
  | .hbm, ⟨15, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S10000x64, .bf16⟩
  | .local _ .vmem, ⟨3, _⟩ => ⟨S200x10000, .f32⟩
  | .local _ .vmem, ⟨4, _⟩ => ⟨S200x10000, .f32⟩
  | .local _ .vmem, ⟨5, _⟩ => ⟨S10000x64, .bf16⟩
  | .local _ .vmem, ⟨6, _⟩ => ⟨S1x64, .f32⟩
  | .local _ .vmem, ⟨7, _⟩ => ⟨S64x64, .f32⟩
  | .local _ .vmem, ⟨8, _⟩ => ⟨S200x10000, .bf16⟩
  | .local _ .vmem, ⟨9, _⟩ => ⟨S200x10000, .bf16⟩
  | .local _ .vmem, ⟨10, _⟩ => ⟨S200x64, .bf16⟩
  | .local _ .vmem, ⟨11, _⟩ => ⟨S200x64, .bf16⟩
  | .local _ .vmem, ⟨12, _⟩ => ⟨S400x10000, .bf16⟩
  | .local _ .vmem, ⟨13, _⟩ => ⟨S400x10000, .bf16⟩
  | .local _ .vmem, ⟨14, _⟩ => ⟨S10000x64, .bf16⟩
  | .local _ .vmem, ⟨15, _⟩ => ⟨S1x64, .f32⟩
  | .local _ .vmem, ⟨16, _⟩ => ⟨S64x16, .f32⟩
  | .local _ .vmem, ⟨17, _⟩ => ⟨S400x16, .bf16⟩
  | .local _ .vmem, ⟨18, _⟩ => ⟨S400x16, .bf16⟩
  | .local _ .vmem, ⟨19, _⟩ => ⟨S400x10000, .bf16⟩
  | .local _ .vmem, ⟨20, _⟩ => ⟨S400x10000, .bf16⟩
  | .local _ .vmem, ⟨21, _⟩ => ⟨S10000x16, .bf16⟩
  | .local _ .vmem, ⟨22, _⟩ => ⟨S1x16, .f32⟩
  | .local _ .vmem, ⟨23, _⟩ => ⟨S400x16, .f32⟩
  | .local _ .vmem, ⟨24, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x64_S64x64_0_0 : ∀ a, (![0, 0] : Fin 2 → Nat) a + S64x64.size a ≤ S64x64.size a
  h_S64x64 : 0 < S64x64.numel
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x64_S400x64 : S1x64.Broadcasts S400x64
  inb_S64x16_S64x16_0_0 : ∀ a, (![0, 0] : Fin 2 → Nat) a + S64x16.size a ≤ S64x16.size a
  h_S64x16 : 0 < S64x16.numel
  inb_S400x16_S400x16_0_0 : ∀ a, (![0, 0] : Fin 2 → Nat) a + S400x16.size a ≤ S400x16.size a
  h_S400x16 : 0 < S400x16.numel
  packedbf16_S400x16_S400x16_0_0 : (Rect.unit (s := S400x16) ![0, 0] S400x16.size inb_S400x16_S400x16_0_0).PackedRows (EltTy.packing .bf16)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x10000.size a ≤ S10000x10000.size a
  hwx1_4 : ∀ i : grid1.Coords, EltTy.bits .bf16 = 32 ∨ (Rect.block (s := S10000x10000) S200x10000.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x64.size a ≤ S10000x64.size a
  hwx1_5 : ∀ i : grid1.Coords, EltTy.bits .bf16 = 32 ∨ (Rect.block (s := S10000x64) S200x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .bf16 = 32 ∨ (Rect.block (s := S10000x16) S400x16.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v3) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S200x10000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S200x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v4_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KernelRun.lean ====
/-
  The kernel's run with its result named.

  The program is a stretch of host reshapes followed by four pipelined regions.  Every weakly fair execution ends,
  nothing faulting, with every buffer that outlives the regions holding the contents at the last boundary of the
  fold through the program: the result array at what the last region's write-backs leave there, the argument
  arrays as launched.
-/
import proofs.«100499_g66838281060773_cont_9to1_m_277_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's
    contents, the argument arrays as launched. -/
theorem run_result : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Run

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«100499_g66838281060773_cont_9to1_m_277_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibLayers.lean ====
/-
  General definitions and lemmas: the layers of a graph convolution, as functions of whole arrays of extended reals.

  A layer multiplies the features by a weight matrix, multiplies the adjacency matrix by the result and adds a
  bias to every row: `A · (H · W) + b`.  Between layers every entry is replaced by its maximum with zero.
  All of it is row-wise in the adjacency matrix: row `r` of the result depends on `A` only through row `r` of `A`.
  So any selection of rows of `A` (a block of consecutive rows, in particular) gives the same selection of rows of
  the result — which is what lets a result computed block of rows by block of rows be read as one array.
-/
import Idealize.ShloMosaic.Lib.Pipeline.Value
import Idealize.ShloMosaic.Lib.ValueIdx
import proofs.«100499_g66838281060773_cont_9to1_m_277_2_alg».proof.Proof.LibMatmulRead

open scoped BigOperators

noncomputable section

namespace Cert.Layers

open Idealize.ShloMosaic Idealize.ShloMosaic.ValueIdx Cert.GCN

/-- A one-axis array of extended reals. -/
abbrev Row (p : Nat) := (⟨1, ![p]⟩ : Shape).Idx → EReal

/-- A vector laid out as the single row of a `[1, p]` array. -/
def asRow {p : Nat} (b : Row p) : Arr 1 p := fun i => b (ix1 (i 1))

/-- A one-row array added to every row. -/
def addRow {n p : Nat} (X : Arr n p) (b : Arr 1 p) : Arr n p := fun i => X i + b (ix2 (0 : Fin 1) (i 1))

/-- Every entry replaced by its maximum with zero. -/
def relu {n p : Nat} (X : Arr n p) : Arr n p := fun i => max (X i) 0

theorem addRow_apply {n p : Nat} (X : Arr n p) (b : Arr 1 p) (r : Fin n) (c : Fin p) :
    addRow X b (ix2 r c) = X (ix2 r c) + b (ix2 (0 : Fin 1) c) := rfl

theorem relu_apply {n p : Nat} (X : Arr n p) (r : Fin n) (c : Fin p) : relu X (ix2 r c) = max (X (ix2 r c)) 0 := rfl

/-- The features handed to the next layer: `max (A · S + b, 0) · W`, where `S` is the previous product. -/
def hidden {n k q p : Nat} (A : Arr n k) (S : Arr k q) (b : Arr 1 q) (W : Arr q p) : Arr n p :=
  mm (relu (addRow (mm A S) b)) W

/-- The last layer's result: `A · S + b`. -/
def affine {n k p : Nat} (A : Arr n k) (S : Arr k p) (b : Arr 1 p) : Arr n p := addRow (mm A S) b

/-! ## Rows of the result come from the same rows of the left factor -/

section Rows

variable {N n : Nat} (f : Fin n → Fin N)

theorem mm_rows {k p : Nat} (A : Arr N k) (A' : Arr n k) (B : Arr k p)
    (h : ∀ r d, A' (ix2 r d) = A (ix2 (f r) d)) (r : Fin n) (c : Fin p) :
    mm A' B (ix2 r c) = mm A B (ix2 (f r) c) := by
  rw [mm_apply, mm_apply]
  exact Finset.sum_congr rfl fun d _ => by rw [h r d]

theorem addRow_rows {p : Nat} (X : Arr N p) (X' : Arr n p) (b : Arr 1 p)
    (h : ∀ r c, X' (ix2 r c) = X (ix2 (f r) c)) (r : Fin n) (c : Fin p) :
    addRow X' b (ix2 r c) = addRow X b (ix2 (f r) c) := by
  rw [addRow_apply, addRow_apply, h r c]

theorem relu_rows {p : Nat} (X : Arr N p) (X' : Arr n p)
    (h : ∀ r c, X' (ix2 r c) = X (ix2 (f r) c)) (r : Fin n) (c : Fin p) :
    relu X' (ix2 r c) = relu X (ix2 (f r) c) := by
  rw [relu_apply, relu_apply, h r c]

theorem hidden_rows {k q p : Nat} (A : Arr N k) (A' : Arr n k) (S : Arr k q) (b : Arr 1 q) (W : Arr q p)
    (h : ∀ r d, A' (ix2 r d) = A (ix2 (f r) d)) (r : Fin n) (c : Fin p) :
    hidden A' S b W (ix2 r c) = hidden A S b W (ix2 (f r) c) :=
  mm_rows f _ _ W (relu_rows f _ _ (addRow_rows f _ _ b (mm_rows f A A' S h))) r c

theorem affine_rows {k p : Nat} (A : Arr N k) (A' : Arr n k) (S : Arr k p) (b : Arr 1 p)
    (h : ∀ r d, A' (ix2 r d) = A (ix2 (f r) d)) (r : Fin n) (c : Fin p) :
    affine A' S b (ix2 r c) = affine A S b (ix2 (f r) c) :=
  addRow_rows f _ _ b (mm_rows f A A' S h) r c

end Rows

/-! ## A one-row array spread over all rows, read at an entry -/

/-- A `[1, b]` array broadcast to `[a, b]` reads, at `(i, j)`, its only row at `j`. -/
theorem broadcastTo_row_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.Layers

end
-- ==== Proof.LibLayerOps.lean ====
/-
  General lemmas: the operations of a dense layer, as a kernel body and as the host spell them, read as whole
  arrays at the ideal values.

  In a kernel body: a plain matrix product into the zero accumulator is the matrix product; adding a one-row array
  spread over the rows adds that row to every row; the maximum with the zero splat is the maximum with zero.
  On the host: a plain `dot_general` is the matrix product; a bias vector is added to every row by broadcasting it
  first to one row and then over all rows; the maximum with zero is taken against a broadcast scalar zero; and a
  vector reshaped to one row is that vector as a row.
-/
import Idealize.ShloMosaic.Lib.Pipeline.Value
import Idealize.ShloMosaic.Lib.ValueIdx
import Idealize.ShloMosaic.PureOps.Ideal.Laws
import proofs.«100499_g66838281060773_cont_9to1_m_277_2_alg».proof.Proof.LibLayers

noncomputable section

namespace Cert.LayerOps

open Idealize.ShloMosaic Idealize.ShloMosaic.ValueIdx Cert.GCN Cert.Layers

/-- A plain matrix product into the zero accumulator is the product of its operands, as whole arrays. -/
theorem matmul_zero_eq_mm {M K N : Nat} {φ₁ φ₂ : FTy} (prec : Option ContractPrecision)
    (l : FVec Ideal ⟨2, ![M, K]⟩ φ₁) (w : FVec Ideal ⟨2, ![K, N]⟩ φ₂) :
    (FloatOps.matmul (DotDims.plain M K N) prec l w (constant ⟨2, ![M, N]⟩ .f32 0x00000000#32) : Arr M N) = mm l w := by
  funext i
  rw [eq_ix2 i]
  exact matmul_plain_zero_apply prec l w (i 0) (i 1)

/-- Adding a one-row array spread over the rows adds that row to every row. -/
theorem addf_row {a b : Nat} (X : FVec Ideal ⟨2, ![a, b]⟩ .f32) (v : FVec Ideal ⟨2, ![1, b]⟩ .f32)
    (h : (⟨2, ![1, b]⟩ : Shape).Broadcasts ⟨2, ![a, b]⟩) :
    (addf X (broadcastTo ⟨2, ![a, b]⟩ v h) : Arr a b) = addRow X v := by
  funext i
  rw [eq_ix2 i]
  exact congrArg (X (ix2 (i 0) (i 1)) + ·) (broadcastTo_row_apply v h (i 0) (i 1))

/-- The maximum with the zero splat is the maximum with zero. -/
theorem maximumf_zero {a b : Nat} (X : FVec Ideal ⟨2, ![a, b]⟩ .f32) :
    (maximumf X (broadcast ⟨2, ![a, b]⟩ (Scalar.ofBits (F := Ideal) .f32 0x00000000#32)) : Arr a b) = relu X := by
  funext i
  show max (X i) (Ideal.ofBits .f32 0x00000000#32) = max (X i) 0
  rw [Ideal.ofBits_zero_f32]

end Cert.LayerOps

namespace Cert.HostLayers

open Idealize.ShloMosaic Idealize.ShloMosaic.ValueIdx Cert.GCN Cert.Layers

/-- A plain `dot_general` on the host is the matrix product of its operands. -/
theorem hostDot_plain {M K N : Nat} (D : DotDims ⟨2, ![M, K]⟩ ⟨2, ![K, N]⟩ ⟨2, ![M, N]⟩) (hD : D = DotDims.plain M K N)
    (prec : Option ContractPrecision) (l : FVec Ideal ⟨2, ![M, K]⟩ .f32) (w : FVec Ideal ⟨2, ![K, N]⟩ .f32) :
    (Host.dotGeneral D prec l w : Arr M N) = mm l w := by
  subst hD
  exact hostDot_eq_mm prec .single l w

/-- A vector broadcast to one row and then over all rows reads, at `(r, c)`, the vector at `c`. -/
theorem bias_apply {n p : Nat} (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) (r : Fin n) (c : Fin p) :
    broadcastInDim ⟨2, ![n, p]⟩ ![0, 1] h2 (broadcastInDim ⟨2, ![1, p]⟩ ![1] h1 b) (ix2 r c) = b (ix1 c) := by
  refine (broadcastInDim_apply ![0, 1] h2 _ (ix2 r c) (ix2 (0 : Fin 1) c) fun a => ?_).trans ?_
  · match a with
    | ⟨0, _⟩ => rfl
    | ⟨1, _⟩ =>
      show c.val = if p = 1 then 0 else c.val
      split
      · have := c.isLt; omega
      · rfl
  · refine broadcastInDim_apply ![1] h1 b (ix2 (0 : Fin 1) c) (ix1 c) fun a => ?_
    match a with
    | ⟨0, _⟩ =>
      show c.val = if p = 1 then 0 else c.val
      split
      · have := c.isLt; omega
      · rfl

/-- Adding that broadcast to an array adds the vector, as a row, to every row. -/
theorem host_addRow {n p : Nat} (X : FVec Ideal ⟨2, ![n, p]⟩ .f32) (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) :
    (addf X (broadcastInDim ⟨2, ![n, p]⟩ ![0, 1] h2 (broadcastInDim ⟨2, ![1, p]⟩ ![1] h1 b)) : Arr n p)
      = addRow X (asRow b) := by
  funext i
  rw [eq_ix2 i]
  exact congrArg (X (ix2 (i 0) (i 1)) + ·) (bias_apply b h1 h2 (i 0) (i 1))

/-- The maximum with the broadcast scalar zero is the maximum with zero. -/
theorem host_relu {n p : Nat} (X : FVec Ideal ⟨2, ![n, p]⟩ .f32)
    (h : (⟨0, ![]⟩ : Shape).BroadcastsInDim ⟨2, ![n, p]⟩ ![]) :
    (maximumf X (broadcastInDim ⟨2, ![n, p]⟩ ![] h (constant (F := Ideal) ⟨0, ![]⟩ .f32 0x00000000#32)) : Arr n p) = relu X := by
  funext i
  show max (X i) (broadcastInDim ⟨2, ![n, p]⟩ ![] h (constant (F := Ideal) ⟨0, ![]⟩ .f32 0x00000000#32) i) = max (X i) 0
  rw [broadcastInDim_apply ![] h _ i ix0 (fun a => a.elim0)]
  show max (X i) (Ideal.ofBits .f32 0x00000000#32) = _
  rw [Ideal.ofBits_zero_f32]

/-- A vector reshaped to one row is that vector as a row. -/
theorem reshape_asRow {p : Nat} (b : FVec Ideal ⟨1, ![p]⟩ .f32) (h : (⟨1, ![p]⟩ : Shape).ShapeCasts ⟨2, ![1, p]⟩) :
    (shapeCast ⟨2, ![1, p]⟩ b h : Arr 1 p) = asRow b := by
  funext i
  have h0 : (i 0).val < 1 := (i 0).isLt
  refine shapeCast_apply b h i (ix1 (i 1)) ?_
  rw [Shape.rowMajor_val_two, Shape.rowMajor_val_one]
  show (i 1).val = (i 0).val * p + (i 1).val
  have : (i 0).val = 0 := by omega
  rw [this, Nat.zero_mul, Nat.zero_add]

end Cert.HostLayers

end
-- ==== Proof.Body.lean ====
/-
  What each kernel body stores, as a function of the blocks it loads, at the ideal values.

  A change of float format is the identity, a matrix product into the zero accumulator is the plain product, the
  bias row spread over the block's rows is added to every row, and the maximum with the zero splat is the maximum
  with zero.  So the first body stores `x · W1`; the second copies its block of adjacency rows and stores
  `max (A · S + b, 0) · W` for that block `A`; the third stores the same expression of its block; the last stores
  `A · S + b`.
-/
import proofs.«100499_g66838281060773_cont_9to1_m_277_2_alg».proof.Proof.Gen.KernelIdeal.Skeleton
import proofs.«100499_g66838281060773_cont_9to1_m_277_2_alg».proof.Proof.LibLayerOps
import Idealize.ShloMosaic.PureOps.Ideal.Laws
import Idealize.ShloMosaic.Lib.Pipeline.Value

noncomputable section

namespace Cert.KernelIdeal.Body

open Idealize.ShloMosaic Idealize.ShloMosaic.ValueIdx Cert.GCN Cert.Layers Cert.LayerOps Cert.KernelIdeal Cert.KernelIdeal.Gen

/-- The first body stores the product of its two blocks. -/
theorem pay0 (x0 : FVec Ideal S10000x128 .f32) (x1 : FVec Ideal S128x64 .f32) :
    (k0_pay1 (F := Ideal) x0 x1 : Arr 10000 64) = mm x0 x1 :=
  matmul_zero_eq_mm none x0 x1

/-- The second body's first store is its block of adjacency rows, unchanged. -/
theorem pay1_copy (x0 : FVec Ideal S200x10000 .f32) : (k1_pay1 (F := Ideal) x0 : Arr 200 10000) = x0 := rfl

/-- The second body's second store: the hidden features of its block of adjacency rows. -/
theorem pay1_hidden (x0 : FVec Ideal S200x10000 .f32) (x1 : FVec Ideal S10000x64 .bf16) (x2 : FVec Ideal S1x64 .f32)
    (x3 : FVec Ideal S64x64 .f32) : (k1_pay2 (F := Ideal) x0 x1 x2 x3 : Arr 200 64) = hidden x0 x1 x2 x3 := by
  refine (matmul_zero_eq_mm none _ x3).trans ?_
  refine congrArg (fun Z : Arr 200 64 => mm Z (x3 : Arr 64 64)) ?_
  refine (maximumf_zero _).trans (congrArg relu ?_)
  rw [shapeCast_self, shapeCast_self]
  refine (addf_row _ x2 broadcasts_S1x64_S200x64).trans ?_
  exact congrArg (fun Z : Arr 200 64 => addRow Z (x2 : Arr 1 64)) (matmul_zero_eq_mm none x0 x1)

/-- The third body stores the hidden features of its block of adjacency rows. -/
theorem pay2_hidden (x0 : FVec Ideal S400x10000 .bf16) (x1 : FVec Ideal S10000x64 .bf16) (x2 : FVec Ideal S1x64 .f32)
    (x3 : FVec Ideal S64x16 .f32) : (k2_pay1 (F := Ideal) x0 x1 x2 x3 : Arr 400 16) = hidden x0 x1 x2 x3 := by
  refine (matmul_zero_eq_mm none _ x3).trans ?_
  refine congrArg (fun Z : Arr 400 64 => mm Z (x3 : Arr 64 16)) ?_
  refine (maximumf_zero _).trans (congrArg relu ?_)
  rw [shapeCast_self, shapeCast_self, shapeCast_self]
  refine (addf_row _ x2 broadcasts_S1x64_S400x64).trans ?_
  exact congrArg (fun Z : Arr 400 64 => addRow Z (x2 : Arr 1 64)) (matmul_zero_eq_mm none x0 x1)

/-- The last body stores the product of its block of adjacency rows with the features, plus the bias row. -/
theorem pay3_affine (x0 : FVec Ideal S400x10000 .bf16) (x1 : FVec Ideal S10000x16 .bf16) (x2 : FVec Ideal S1x16 .f32) :
    (k3_pay1 (F := Ideal) x0 x1 x2 : Arr 400 16) = affine x0 x1 x2 := by
  unfold k3_pay1
  dsimp only
  rw [shapeCast_self, shapeCast_self, shapeCast_self]
  refine (addf_row _ x2 broadcasts_S1x16_S400x16).trans ?_
  exact congrArg (fun Z : Arr 400 16 => addRow Z (x2 : Arr 1 16)) (matmul_zero_eq_mm none x0 x1)

end Cert.KernelIdeal.Body

end
-- ==== Proof.Region0.lean ====
/-
  The first kernel (no grid: one point, whole arrays), read as a whole array.

  Its one point loads the whole feature matrix and the whole first weight matrix and writes their product back as
  the whole output, so after it the output array is that product.
-/
import proofs.«100499_g66838281060773_cont_9to1_m_277_2_alg».proof.Proof.Gen.KernelIdeal.Frame
import proofs.«100499_g66838281060773_cont_9to1_m_277_2_alg».proof.Proof.Body
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.GCN Cert.Layers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window sits at block index zero at the one point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The blocks the body loads are the whole arrays -/

theorem x_block (c : Dev nD) (t : Fin cfg0.N) : (iblk0 V c 0 t : Arr 10000 128) = (V c main_arg0 : Arr 10000 128) := by
  obtain ⟨e0, e1, -⟩ := idx_facts t
  funext y
  show (V c main_arg0 : Arr 10000 128) (((cfg0.win 0).blk t).view.emb y) = _
  refine congrArg (V c main_arg0 : Arr 10000 128) (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

theorem w_block (c : Dev nD) (t : Fin cfg0.N) : (iblk0 V c 1 t : Arr 128 64) = (V c main_arg2 : Arr 128 64) := by
  obtain ⟨-, -, e0, e1, -⟩ := idx_facts t
  funext y
  show (V c main_arg2 : Arr 128 64) (((cfg0.win 1).blk t).view.emb y) = _
  refine congrArg (V c main_arg2 : Arr 128 64) (funext fun a => Fin.ext ?_)
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-! ## What the point writes back -/

theorem emb_out (t : Fin cfg0.N) (y : S10000x64.Idx) : ((cfg0.win 2).blk t).view.emb y = y := by
  obtain ⟨-, -, -, -, e0, e1⟩ := idx_facts t
  refine funext fun a => Fin.ext ?_
  match a with
  | ⟨0, _⟩ => show win0_2.index t (0 : Fin 2) * 10000 + 1 * (y 0).val = (y 0).val; rw [e0]; omega
  | ⟨1, _⟩ => show win0_2.index t (1 : Fin 2) * 64 + 1 * (y 1).val = (y 1).val; rw [e1]; omega

/-- The point writes back the product of the two arrays the region found. -/
theorem flushed_eq (c : Dev nD) (t : Fin cfg0.N) :
    (dat0 V c).flushed 2 t = ((cfg0.win 2).blk t).view.read (Elt Ideal)
      (mm (V c main_arg0 : Arr 10000 128) (V c main_arg2 : Arr 128 64)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  show (k0_pay1 (F := Ideal) (iblk0 V c 0 t) (iblk0 V c 1 t) : Arr 10000 64) j
    = mm (V c main_arg0 : Arr 10000 128) (V c main_arg2 : Arr 128 64) (((cfg0.win 2).blk t).view.emb j)
  rw [emb_out]
  refine (congrFun (Body.pay0 _ _) j).trans ?_
  refine (congrArg (fun Z : Arr 10000 128 => mm Z (iblk0 V c 1 t : Arr 128 64) j) (x_block V c t)).trans ?_
  exact congrArg (fun Z : Arr 128 64 => mm (V c main_arg0 : Arr 10000 128) Z j) (w_block V c t)

/-! ## The one block is the whole array -/

theorem mem_blk (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v3).slice (win0_2.rect t)).set ↔ _
  rw [View.set_slice_whole, Rect.mem_set_unit]
  exact Iff.rfl

theorem cover (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  have hN : grid0.N = 1 := N_0
  let t0 : Fin cfg0.N := ⟨0, by show 0 < grid0.N; omega⟩
  refine ⟨t0, flush0_2 _, ?_⟩
  obtain ⟨-, -, -, -, e0, e1⟩ := idx_facts t0
  rw [mem_blk]
  intro a
  match a with
  | ⟨0, _⟩ => show win0_2.index _ (0 : Fin 2) * 10000 ≤ (i 0).val ∧ (i 0).val < win0_2.index _ (0 : Fin 2) * 10000 + 10000; rw [e0]; omega
  | ⟨1, _⟩ => show win0_2.index _ (1 : Fin 2) * 64 ≤ (i 1).val ∧ (i 1).val < win0_2.index _ (1 : Fin 2) * 64 + 64; rw [e1]; omega

/-- The output ends holding the product of the two arrays the region found. -/
theorem final (c : Dev nD) : (dat0 V c).arrAt 2 cfg0.N
    = mm (V c main_arg0 : Arr 10000 128) (V c main_arg2 : Arr 128 64) :=
  (dat0 V c).arrAt_eq_of_cover 2 _ (fun t _ => flushed_eq V c t) cover

end Cert.KernelIdeal.Region0

end
-- ==== Proof.Region1.lean ====
/-
  The second kernel (one grid point per block of 200 adjacency rows), read as whole arrays.

  Point `t` loads rows `200 t … 200 t + 199` of the adjacency matrix, the whole feature product, the bias row and the
  whole weight matrix.  It writes those adjacency rows back unchanged into the copy, and the hidden features of
  those rows into rows `200 t … 200 t + 199` of the second output.  The fifty blocks tile the 10000 rows, so after
  the last point the copy is the adjacency matrix and the second output is the hidden features of all rows.
-/
import proofs.«100499_g66838281060773_cont_9to1_m_277_2_alg».proof.Proof.Gen.KernelIdeal.Frame
import proofs.«100499_g66838281060773_cont_9to1_m_277_2_alg».proof.Proof.Body
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.GCN Cert.Layers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every point: the adjacency rows and both outputs move with the point,
    the other three windows stay on their whole arrays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The row of the array that row `r` of point `t`'s block is. -/
def row (t : Fin cfg1.N) (r : Fin 200) : Fin 10000 :=
  ⟨t.val * 200 + r.val, by
    have hN : grid1.N = 50 := N_1
    have ht : t.val < grid1.N := t.isLt
    have hr := r.isLt
    omega⟩

/-! ## The blocks the body loads -/

theorem adj_block (c : Dev nD) (t : Fin cfg1.N) (r : Fin 200) (d : Fin 10000) :
    (iblk1 V c 0 t : Arr 200 10000) (ix2 r d) = (V c main_arg1 : Arr 10000 10000) (ix2 (row t r) d) := by
  obtain ⟨e0, e1, -⟩ := idx_facts t
  show (V c main_arg1 : Arr 10000 10000) (((cfg1.win 0).blk t).view.emb (ix2 r d)) = _
  refine congrArg (V c main_arg1 : Arr 10000 10000) (funext fun a => Fin.ext ?_)
  match a with
  | ⟨0, _⟩ => show win1_0.index t (0 : Fin 2) * 200 + 1 * r.val = t.val * 200 + r.val; rw [e0]; omega
  | ⟨1, _⟩ => show win1_0.index t (1 : Fin 2) * 10000 + 1 * d.val = d.val; rw [e1]; omega

theorem feat_block (c : Dev nD) (t : Fin cfg1.N) : (iblk1 V c 1 t : Arr 10000 64) = (V c main_v3 : Arr 10000 64) := by
  obtain ⟨-, -, e0, e1, -⟩ := idx_facts t
  funext y
  show (V c main_v3 : Arr 10000 64) (((cfg1.win 1).blk t).view.emb y) = _
  refine congrArg (V c main_v3 : Arr 10000 64) (funext fun a => Fin.ext ?_)
  match a with
  | ⟨0, _⟩ => show win1_1.index t (0 : Fin 2) * 10000 + 1 * (y 0).val = (y 0).val; rw [e0]; omega
  | ⟨1, _⟩ => show win1_1.index t (1 : Fin 2) * 64 + 1 * (y 1).val = (y 1).val; rw [e1]; omega

theorem bias_block (c : Dev nD) (t : Fin cfg1.N) : (iblk1 V c 2 t : Arr 1 64) = (V c main_v0 : Arr 1 64) := by
  obtain ⟨-, -, -, -, e0, e1, -⟩ := idx_facts t
  funext y
  show (V c main_v0 : Arr 1 64) (((cfg1.win 2).blk t).view.emb y) = _
  refine congrArg (V c main_v0 : Arr 1 64) (funext fun a => Fin.ext ?_)
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

theorem weight_block (c : Dev nD) (t : Fin cfg1.N) : (iblk1 V c 3 t : Arr 64 64) = (V c main_arg4 : Arr 64 64) := by
  obtain ⟨-, -, -, -, -, -, e0, e1, -⟩ := idx_facts t
  funext y
  show (V c main_arg4 : Arr 64 64) (((cfg1.win 3).blk t).view.emb y) = _
  refine congrArg (V c main_arg4 : Arr 64 64) (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-! ## What each point writes back -/

/-- Where entry `(r, cc)` of point `t`'s block of the second output sits in the array. -/
theorem emb5 (t : Fin cfg1.N) (r : Fin 200) (cc : Fin 64) :
    ((cfg1.win 5).blk t).view.emb (ix2 r cc) = (ix2 (row t r) cc : S10000x64.Idx) := by
  obtain ⟨-, -, -, -, -, -, -, -, -, -, e0, e1⟩ := idx_facts t
  refine funext fun a => Fin.ext ?_
  match a with
  | ⟨0, _⟩ => show win1_5.index t (0 : Fin 2) * 200 + 1 * r.val = t.val * 200 + r.val; rw [e0]; omega
  | ⟨1, _⟩ => show win1_5.index t (1 : Fin 2) * 64 + 1 * cc.val = cc.val; rw [e1]; omega

/-- Where entry `(r, d)` of point `t`'s block of the adjacency copy sits in the array. -/
theorem emb4 (t : Fin cfg1.N) (r : Fin 200) (d : Fin 10000) :
    ((cfg1.win 4).blk t).view.emb (ix2 r d) = (ix2 (row t r) d : S10000x10000.Idx) := by
  obtain ⟨-, -, -, -, -, -, -, -, e0, e1, -⟩ := idx_facts t
  refine funext fun a => Fin.ext ?_
  match a with
  | ⟨0, _⟩ => show win1_4.index t (0 : Fin 2) * 200 + 1 * r.val = t.val * 200 + r.val; rw [e0]; omega
  | ⟨1, _⟩ => show win1_4.index t (1 : Fin 2) * 10000 + 1 * d.val = d.val; rw [e1]; omega

/-- Point `t` writes back, into the adjacency copy, its block of adjacency rows. -/
theorem flushed4_eq (c : Dev nD) (t : Fin cfg1.N) :
    (dat1 V c).flushed 4 t = ((cfg1.win 4).blk t).view.read (Elt Ideal) (V c main_arg1) := by
  show (cfg1.win 4).cut (grid1.coords t) ((dat1 V c).after 4 t) = _
  rw [after1_4]
  unfold out1_4
  rw [View.canon_unit_zero hz]
  simp only [View.ld_unit_zero (S := S200x10000) hz]
  funext j
  obtain ⟨r, d, rfl⟩ : ∃ (r : Fin 200) (d : Fin 10000), j = ix2 r d := ⟨j 0, j 1, eq_ix2 j⟩
  show (k1_pay1 (F := Ideal) (iblk1 V c 0 t) : Arr 200 10000) (ix2 r d) = (V c main_arg1 : Arr 10000 10000) (((cfg1.win 4).blk t).view.emb (ix2 r d))
  rw [emb4]
  exact adj_block V c t r d

/-- Point `t` writes back, into the second output, the hidden features of its rows. -/
theorem flushed5_eq (c : Dev nD) (t : Fin cfg1.N) :
    (dat1 V c).flushed 5 t = ((cfg1.win 5).blk t).view.read (Elt Ideal)
      (hidden (V c main_arg1 : Arr 10000 10000) (V c main_v3 : Arr 10000 64) (V c main_v0 : Arr 1 64) (V c main_arg4 : Arr 64 64)) := by
  show (cfg1.win 5).cut (grid1.coords t) ((dat1 V c).after 5 t) = _
  rw [after1_5]
  unfold out1_5
  rw [View.canon_unit_zero hz]
  simp only [View.ld_unit_zero (S := S200x10000) hz, View.ld_unit_zero (S := S10000x64) hz, View.ld_unit_zero (S := S1x64) hz,
    View.ld_unit_zero (S := S64x64) hz]
  funext j
  obtain ⟨r, cc, rfl⟩ : ∃ (r : Fin 200) (cc : Fin 64), j = ix2 r cc := ⟨j 0, j 1, eq_ix2 j⟩
  show (k1_pay2 (F := Ideal) (iblk1 V c 0 t) (iblk1 V c 1 t) (iblk1 V c 2 t) (iblk1 V c 3 t) : Arr 200 64) (ix2 r cc)
    = hidden (V c main_arg1 : Arr 10000 10000) (V c main_v3 : Arr 10000 64) (V c main_v0 : Arr 1 64) (V c main_arg4 : Arr 64 64)
        (((cfg1.win 5).blk t).view.emb (ix2 r cc))
  rw [emb5]
  refine (congrFun (Body.pay1_hidden _ _ _ _) (ix2 r cc)).trans ?_
  refine (congrArg (fun S : Arr 10000 64 => hidden (iblk1 V c 0 t : Arr 200 10000) S (iblk1 V c 2 t : Arr 1 64) (iblk1 V c 3 t : Arr 64 64) (ix2 r cc)) (feat_block V c t)).trans ?_
  refine (congrArg (fun b : Arr 1 64 => hidden (iblk1 V c 0 t : Arr 200 10000) (V c main_v3 : Arr 10000 64) b (iblk1 V c 3 t : Arr 64 64) (ix2 r cc)) (bias_block V c t)).trans ?_
  refine (congrArg (fun W : Arr 64 64 => hidden (iblk1 V c 0 t : Arr 200 10000) (V c main_v3 : Arr 10000 64) (V c main_v0 : Arr 1 64) W (ix2 r cc)) (weight_block V c t)).trans ?_
  exact hidden_rows (row t) _ _ _ _ _ (adj_block V c t) r cc

/-! ## The blocks tile the rows -/

theorem mem_blk5 (t : Fin cfg1.N) (i : S10000x64.Idx) :
    i ∈ ((cfg1.win 5).blk t).view.set ↔ ∀ a : Fin 2, win1_5.index t a * S200x64.size a ≤ (i a).val ∧ (i a).val < win1_5.index t a * S200x64.size a + S200x64.size a := by
  show i ∈ ((View.whole main_v4_1).slice (win1_5.rect t)).set ↔ _
  rw [View.set_slice_whole, Rect.mem_set_unit]
  exact Iff.rfl

theorem mem_blk4 (t : Fin cfg1.N) (i : S10000x10000.Idx) :
    i ∈ ((cfg1.win 4).blk t).view.set ↔ ∀ a : Fin 2, win1_4.index t a * S200x10000.size a ≤ (i a).val ∧ (i a).val < win1_4.index t a * S200x10000.size a + S200x10000.size a := by
  show i ∈ ((View.whole main_v4_0).slice (win1_4.rect t)).set ↔ _
  rw [View.set_slice_whole, Rect.mem_set_unit]
  exact Iff.rfl

/-- The point whose block holds row `n`. -/
def pointOf (n : Nat) (h : n < 10000) : Fin cfg1.N := ⟨n / 200, by have hN : grid1.N = 50 := N_1; show n / 200 < grid1.N; omega⟩

theorem cover5 (i : S10000x64.Idx) : ∃ t : Fin cfg1.N, (cfg1.win 5).flush t = true ∧ i ∈ ((cfg1.win 5).blk t).view.set := by
  have hi0 : (i 0).val < 10000 := (i 0).isLt
  have hi1 : (i 1).val < 64 := (i 1).isLt
  refine ⟨pointOf (i 0).val hi0, flush1_5 _, ?_⟩
  obtain ⟨-, -, -, -, -, -, -, -, -, -, e0, e1⟩ := idx_facts (pointOf (i 0).val hi0)
  have ht : (pointOf (i 0).val hi0).val = (i 0).val / 200 := rfl
  rw [mem_blk5]
  intro a
  match a with
  | ⟨0, _⟩ => show win1_5.index _ (0 : Fin 2) * 200 ≤ (i 0).val ∧ (i 0).val < win1_5.index _ (0 : Fin 2) * 200 + 200; rw [e0, ht]; omega
  | ⟨1, _⟩ => show win1_5.index _ (1 : Fin 2) * 64 ≤ (i 1).val ∧ (i 1).val < win1_5.index _ (1 : Fin 2) * 64 + 64; rw [e1]; omega

theorem cover4 (i : S10000x10000.Idx) : ∃ t : Fin cfg1.N, (cfg1.win 4).flush t = true ∧ i ∈ ((cfg1.win 4).blk t).view.set := by
  have hi0 : (i 0).val < 10000 := (i 0).isLt
  have hi1 : (i 1).val < 10000 := (i 1).isLt
  refine ⟨pointOf (i 0).val hi0, flush1_4 _, ?_⟩
  obtain ⟨-, -, -, -, -, -, -, -, e0, e1, -⟩ := idx_facts (pointOf (i 0).val hi0)
  have ht : (pointOf (i 0).val hi0).val = (i 0).val / 200 := rfl
  rw [mem_blk4]
  intro a
  match a with
  | ⟨0, _⟩ => show win1_4.index _ (0 : Fin 2) * 200 ≤ (i 0).val ∧ (i 0).val < win1_4.index _ (0 : Fin 2) * 200 + 200; rw [e0, ht]; omega
  | ⟨1, _⟩ => show win1_4.index _ (1 : Fin 2) * 10000 ≤ (i 1).val ∧ (i 1).val < win1_4.index _ (1 : Fin 2) * 10000 + 10000; rw [e1]; omega

/-! ## The arrays after the last point -/

/-- The adjacency copy ends holding the adjacency matrix as the region found it. -/
theorem final4 (c : Dev nD) : (dat1 V c).arrAt 4 cfg1.N = V c main_arg1 :=
  (dat1 V c).arrAt_eq_of_cover 4 (V c main_arg1) (fun t _ => flushed4_eq V c t) cover4

/-- The second output ends holding the hidden features of all rows. -/
theorem final5 (c : Dev nD) : (dat1 V c).arrAt 5 cfg1.N
    = hidden (V c main_arg1 : Arr 10000 10000) (V c main_v3 : Arr 10000 64) (V c main_v0 : Arr 1 64) (V c main_arg4 : Arr 64 64) :=
  (dat1 V c).arrAt_eq_of_cover 5 _ (fun t _ => flushed5_eq V c t) cover5

end Cert.KernelIdeal.Region1

end
-- ==== Proof.Region2.lean ====
/-
  The third kernel (one grid point per block of 400 rows of the adjacency copy), read as a whole array.

  Point `t` loads rows `400 t … 400 t + 399` of the adjacency copy, the whole second-layer feature product, the bias
  row and the whole weight matrix, and writes the hidden features of those rows into the same rows of its output.
  The twenty-five blocks tile the 10000 rows, so after the last point the output is the hidden features of all rows.
-/
import proofs.«100499_g66838281060773_cont_9to1_m_277_2_alg».proof.Proof.Gen.KernelIdeal.Frame
import proofs.«100499_g66838281060773_cont_9to1_m_277_2_alg».proof.Proof.Body
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.GCN Cert.Layers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every point: the adjacency rows and the output move with the point, the
    other windows stay on their whole arrays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The row of the array that row `r` of point `t`'s block is. -/
def row (t : Fin cfg2.N) (r : Fin 400) : Fin 10000 :=
  ⟨t.val * 400 + r.val, by
    have hN : grid2.N = 25 := N_2
    have ht : t.val < grid2.N := t.isLt
    have hr := r.isLt
    omega⟩

/-! ## The blocks the body loads -/

theorem adj_block (c : Dev nD) (t : Fin cfg2.N) (r : Fin 400) (d : Fin 10000) :
    (iblk2 V c 0 t : Arr 400 10000) (ix2 r d) = (V c main_v4_0 : Arr 10000 10000) (ix2 (row t r) d) := by
  obtain ⟨e0, e1, -⟩ := idx_facts t
  show (V c main_v4_0 : Arr 10000 10000) (((cfg2.win 0).blk t).view.emb (ix2 r d)) = _
  refine congrArg (V c main_v4_0 : Arr 10000 10000) (funext fun a => Fin.ext ?_)
  match a with
  | ⟨0, _⟩ => show win2_0.index t (0 : Fin 2) * 400 + 1 * r.val = t.val * 400 + r.val; rw [e0]; omega
  | ⟨1, _⟩ => show win2_0.index t (1 : Fin 2) * 10000 + 1 * d.val = d.val; rw [e1]; omega

theorem feat_block (c : Dev nD) (t : Fin cfg2.N) : (iblk2 V c 1 t : Arr 10000 64) = (V c main_v4_1 : Arr 10000 64) := by
  obtain ⟨-, -, e0, e1, -⟩ := idx_facts t
  funext y
  show (V c main_v4_1 : Arr 10000 64) (((cfg2.win 1).blk t).view.emb y) = _
  refine congrArg (V c main_v4_1 : Arr 10000 64) (funext fun a => Fin.ext ?_)
  match a with
  | ⟨0, _⟩ => show win2_1.index t (0 : Fin 2) * 10000 + 1 * (y 0).val = (y 0).val; rw [e0]; omega
  | ⟨1, _⟩ => show win2_1.index t (1 : Fin 2) * 64 + 1 * (y 1).val = (y 1).val; rw [e1]; omega

theorem bias_block (c : Dev nD) (t : Fin cfg2.N) : (iblk2 V c 2 t : Arr 1 64) = (V c main_v1 : Arr 1 64) := by
  obtain ⟨-, -, -, -, e0, e1, -⟩ := idx_facts t
  funext y
  show (V c main_v1 : Arr 1 64) (((cfg2.win 2).blk t).view.emb y) = _
  refine congrArg (V c main_v1 : Arr 1 64) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

theorem weight_block (c : Dev nD) (t : Fin cfg2.N) : (iblk2 V c 3 t : Arr 64 16) = (V c main_arg6 : Arr 64 16) := by
  obtain ⟨-, -, -, -, -, -, e0, e1, -⟩ := idx_facts t
  funext y
  show (V c main_arg6 : Arr 64 16) (((cfg2.win 3).blk t).view.emb y) = _
  refine congrArg (V c main_arg6 : Arr 64 16) (funext fun a => Fin.ext ?_)
  match a with
  | ⟨0, _⟩ => show win2_3.index t (0 : Fin 2) * 64 + 1 * (y 0).val = (y 0).val; rw [e0]; omega
  | ⟨1, _⟩ => show win2_3.index t (1 : Fin 2) * 16 + 1 * (y 1).val = (y 1).val; rw [e1]; omega

/-! ## What each point writes back -/

/-- Where entry `(r, cc)` of point `t`'s output block sits in the array. -/
theorem emb_out (t : Fin cfg2.N) (r : Fin 400) (cc : Fin 16) :
    ((cfg2.win 4).blk t).view.emb (ix2 r cc) = (ix2 (row t r) cc : S10000x16.Idx) := by
  obtain ⟨-, -, -, -, -, -, -, -, e0, e1⟩ := idx_facts t
  refine funext fun a => Fin.ext ?_
  match a with
  | ⟨0, _⟩ => show win2_4.index t (0 : Fin 2) * 400 + 1 * r.val = t.val * 400 + r.val; rw [e0]; omega
  | ⟨1, _⟩ => show win2_4.index t (1 : Fin 2) * 16 + 1 * cc.val = cc.val; rw [e1]; omega

/-- Point `t` writes back the rows of the whole-array result that its block of adjacency rows gives. -/
theorem flushed_eq (c : Dev nD) (t : Fin cfg2.N) :
    (dat2 V c).flushed 4 t = ((cfg2.win 4).blk t).view.read (Elt Ideal)
      (hidden (V c main_v4_0 : Arr 10000 10000) (V c main_v4_1 : Arr 10000 64) (V c main_v1 : Arr 1 64) (V c main_arg6 : Arr 64 16)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x64) hz, View.ld_unit_zero (S := S1x64) hz, View.ld_unit_zero (S := S64x16) hz]
  funext j
  obtain ⟨r, cc, rfl⟩ : ∃ (r : Fin 400) (cc : Fin 16), j = ix2 r cc := ⟨j 0, j 1, eq_ix2 j⟩
  show (k2_pay1 (F := Ideal) (iblk2 V c 0 t) (iblk2 V c 1 t) (iblk2 V c 2 t) (iblk2 V c 3 t) : Arr 400 16) (ix2 r cc)
    = hidden (V c main_v4_0 : Arr 10000 10000) (V c main_v4_1 : Arr 10000 64) (V c main_v1 : Arr 1 64) (V c main_arg6 : Arr 64 16)
        (((cfg2.win 4).blk t).view.emb (ix2 r cc))
  rw [emb_out]
  refine (congrFun (Body.pay2_hidden _ _ _ _) (ix2 r cc)).trans ?_
  refine (congrArg (fun Z : Arr 10000 64 => hidden (iblk2 V c 0 t : Arr 400 10000) Z (iblk2 V c 2 t : Arr 1 64) (iblk2 V c 3 t : Arr 64 16) (ix2 r cc)) (feat_block V c t)).trans ?_
  refine (congrArg (fun Z : Arr 1 64 => hidden (iblk2 V c 0 t : Arr 400 10000) (V c main_v4_1 : Arr 10000 64) Z (iblk2 V c 3 t : Arr 64 16) (ix2 r cc)) (bias_block V c t)).trans ?_
  refine (congrArg (fun Z : Arr 64 16 => hidden (iblk2 V c 0 t : Arr 400 10000) (V c main_v4_1 : Arr 10000 64) (V c main_v1 : Arr 1 64) Z (ix2 r cc)) (weight_block V c t)).trans ?_
  exact hidden_rows (row t) _ _ _ _ _ (adj_block V c t) r cc

/-! ## The blocks tile the rows -/

theorem mem_blk (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_v5).slice (win2_4.rect t)).set ↔ _
  rw [View.set_slice_whole, Rect.mem_set_unit]
  exact Iff.rfl

/-- The point whose block holds row `n`. -/
def pointOf (n : Nat) (h : n < 10000) : Fin cfg2.N := ⟨n / 400, by have hN : grid2.N = 25 := N_2; show n / 400 < grid2.N; omega⟩

theorem cover (i : S10000x16.Idx) : ∃ t : Fin cfg2.N, (cfg2.win 4).flush t = true ∧ i ∈ ((cfg2.win 4).blk t).view.set := by
  have hi0 : (i 0).val < 10000 := (i 0).isLt
  have hi1 : (i 1).val < 16 := (i 1).isLt
  refine ⟨pointOf (i 0).val hi0, flush2_4 _, ?_⟩
  obtain ⟨-, -, -, -, -, -, -, -, e0, e1⟩ := idx_facts (pointOf (i 0).val hi0)
  have ht : (pointOf (i 0).val hi0).val = (i 0).val / 400 := rfl
  rw [mem_blk]
  intro a
  match a with
  | ⟨0, _⟩ => show win2_4.index _ (0 : Fin 2) * 400 ≤ (i 0).val ∧ (i 0).val < win2_4.index _ (0 : Fin 2) * 400 + 400; rw [e0, ht]; omega
  | ⟨1, _⟩ => show win2_4.index _ (1 : Fin 2) * 16 ≤ (i 1).val ∧ (i 1).val < win2_4.index _ (1 : Fin 2) * 16 + 16; rw [e1]; omega

/-! ## The array after the last point -/

/-- The output ends holding the whole-array result of the arrays the region found. -/
theorem final (c : Dev nD) : (dat2 V c).arrAt 4 cfg2.N
    = hidden (V c main_v4_0 : Arr 10000 10000) (V c main_v4_1 : Arr 10000 64) (V c main_v1 : Arr 1 64) (V c main_arg6 : Arr 64 16) :=
  (dat2 V c).arrAt_eq_of_cover 4 _ (fun t _ => flushed_eq V c t) cover

end Cert.KernelIdeal.Region2

end
-- ==== Proof.Region3.lean ====
/-
  The last kernel (one grid point per block of 400 rows of the adjacency copy), read as a whole array.

  Point `t` loads rows `400 t … 400 t + 399` of the adjacency copy, the whole third-layer feature product and the
  bias row, and writes their product plus the bias into the same rows of the result.  The twenty-five blocks tile
  the 10000 rows, so after the last point the result is `A · S + b` for the whole adjacency copy `A`.
-/
import proofs.«100499_g66838281060773_cont_9to1_m_277_2_alg».proof.Proof.Gen.KernelIdeal.Frame
import proofs.«100499_g66838281060773_cont_9to1_m_277_2_alg».proof.Proof.Body
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.GCN Cert.Layers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every point: the adjacency rows and the output move with the point, the
    other windows stay on their whole arrays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row of the array that row `r` of point `t`'s block is. -/
def row (t : Fin cfg3.N) (r : Fin 400) : Fin 10000 :=
  ⟨t.val * 400 + r.val, by
    have hN : grid3.N = 25 := N_3
    have ht : t.val < grid3.N := t.isLt
    have hr := r.isLt
    omega⟩

/-! ## The blocks the body loads -/

theorem adj_block (c : Dev nD) (t : Fin cfg3.N) (r : Fin 400) (d : Fin 10000) :
    (iblk3 V c 0 t : Arr 400 10000) (ix2 r d) = (V c main_v4_0 : Arr 10000 10000) (ix2 (row t r) d) := by
  obtain ⟨e0, e1, -⟩ := idx_facts t
  show (V c main_v4_0 : Arr 10000 10000) (((cfg3.win 0).blk t).view.emb (ix2 r d)) = _
  refine congrArg (V c main_v4_0 : Arr 10000 10000) (funext fun a => Fin.ext ?_)
  match a with
  | ⟨0, _⟩ => show win3_0.index t (0 : Fin 2) * 400 + 1 * r.val = t.val * 400 + r.val; rw [e0]; omega
  | ⟨1, _⟩ => show win3_0.index t (1 : Fin 2) * 10000 + 1 * d.val = d.val; rw [e1]; omega

theorem feat_block (c : Dev nD) (t : Fin cfg3.N) : (iblk3 V c 1 t : Arr 10000 16) = (V c main_v5 : Arr 10000 16) := by
  obtain ⟨-, -, e0, e1, -⟩ := idx_facts t
  funext y
  show (V c main_v5 : Arr 10000 16) (((cfg3.win 1).blk t).view.emb y) = _
  refine congrArg (V c main_v5 : Arr 10000 16) (funext fun a => Fin.ext ?_)
  match a with
  | ⟨0, _⟩ => show win3_1.index t (0 : Fin 2) * 10000 + 1 * (y 0).val = (y 0).val; rw [e0]; omega
  | ⟨1, _⟩ => show win3_1.index t (1 : Fin 2) * 16 + 1 * (y 1).val = (y 1).val; rw [e1]; omega

theorem bias_block (c : Dev nD) (t : Fin cfg3.N) : (iblk3 V c 2 t : Arr 1 16) = (V c main_v2 : Arr 1 16) := by
  obtain ⟨-, -, -, -, e0, e1, -⟩ := idx_facts t
  funext y
  show (V c main_v2 : Arr 1 16) (((cfg3.win 2).blk t).view.emb y) = _
  refine congrArg (V c main_v2 : Arr 1 16) (funext fun a => Fin.ext ?_)
  match a with
  | ⟨0, _⟩ => show win3_2.index t (0 : Fin 2) * 1 + 1 * (y 0).val = (y 0).val; rw [e0]; omega
  | ⟨1, _⟩ => show win3_2.index t (1 : Fin 2) * 16 + 1 * (y 1).val = (y 1).val; rw [e1]; omega

/-! ## What each point writes back -/

/-- Where entry `(r, cc)` of point `t`'s output block sits in the array. -/
theorem emb_out (t : Fin cfg3.N) (r : Fin 400) (cc : Fin 16) :
    ((cfg3.win 3).blk t).view.emb (ix2 r cc) = (ix2 (row t r) cc : S10000x16.Idx) := by
  obtain ⟨-, -, -, -, -, -, e0, e1⟩ := idx_facts t
  refine funext fun a => Fin.ext ?_
  match a with
  | ⟨0, _⟩ => show win3_3.index t (0 : Fin 2) * 400 + 1 * r.val = t.val * 400 + r.val; rw [e0]; omega
  | ⟨1, _⟩ => show win3_3.index t (1 : Fin 2) * 16 + 1 * cc.val = cc.val; rw [e1]; omega

/-- Point `t` writes back the rows of the whole-array result that its block of adjacency rows gives. -/
theorem flushed_eq (c : Dev nD) (t : Fin cfg3.N) :
    (dat3 V c).flushed 3 t = ((cfg3.win 3).blk t).view.read (Elt Ideal)
      (affine (V c main_v4_0 : Arr 10000 10000) (V c main_v5 : Arr 10000 16) (V c main_v2 : Arr 1 16)) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x16) hz, View.ld_unit_zero (S := S1x16) hz]
  funext j
  obtain ⟨r, cc, rfl⟩ : ∃ (r : Fin 400) (cc : Fin 16), j = ix2 r cc := ⟨j 0, j 1, eq_ix2 j⟩
  show (k3_pay1 (F := Ideal) (iblk3 V c 0 t) (iblk3 V c 1 t) (iblk3 V c 2 t) : Arr 400 16) (ix2 r cc)
    = affine (V c main_v4_0 : Arr 10000 10000) (V c main_v5 : Arr 10000 16) (V c main_v2 : Arr 1 16)
        (((cfg3.win 3).blk t).view.emb (ix2 r cc))
  rw [emb_out]
  refine (congrFun (Body.pay3_affine _ _ _) (ix2 r cc)).trans ?_
  refine (congrArg (fun Z : Arr 10000 16 => affine (iblk3 V c 0 t : Arr 400 10000) Z (iblk3 V c 2 t : Arr 1 16) (ix2 r cc)) (feat_block V c t)).trans ?_
  refine (congrArg (fun Z : Arr 1 16 => affine (iblk3 V c 0 t : Arr 400 10000) (V c main_v5 : Arr 10000 16) Z (ix2 r cc)) (bias_block V c t)).trans ?_
  exact affine_rows (row t) _ _ _ _ (adj_block V c t) r cc

/-! ## The blocks tile the rows -/

theorem mem_blk (t : Fin cfg3.N) (i : S10000x16.Idx) :
    i ∈ ((cfg3.win 3).blk t).view.set ↔ ∀ a : Fin 2, win3_3.index t a * S400x16.size a ≤ (i a).val ∧ (i a).val < win3_3.index t a * S400x16.size a + S400x16.size a := by
  show i ∈ ((View.whole main_v6).slice (win3_3.rect t)).set ↔ _
  rw [View.set_slice_whole, Rect.mem_set_unit]
  exact Iff.rfl

/-- The point whose block holds row `n`. -/
def pointOf (n : Nat) (h : n < 10000) : Fin cfg3.N := ⟨n / 400, by have hN : grid3.N = 25 := N_3; show n / 400 < grid3.N; omega⟩

theorem cover (i : S10000x16.Idx) : ∃ t : Fin cfg3.N, (cfg3.win 3).flush t = true ∧ i ∈ ((cfg3.win 3).blk t).view.set := by
  have hi0 : (i 0).val < 10000 := (i 0).isLt
  have hi1 : (i 1).val < 16 := (i 1).isLt
  refine ⟨pointOf (i 0).val hi0, flush3_3 _, ?_⟩
  obtain ⟨-, -, -, -, -, -, e0, e1⟩ := idx_facts (pointOf (i 0).val hi0)
  have ht : (pointOf (i 0).val hi0).val = (i 0).val / 400 := rfl
  rw [mem_blk]
  intro a
  match a with
  | ⟨0, _⟩ => show win3_3.index _ (0 : Fin 2) * 400 ≤ (i 0).val ∧ (i 0).val < win3_3.index _ (0 : Fin 2) * 400 + 400; rw [e0, ht]; omega
  | ⟨1, _⟩ => show win3_3.index _ (1 : Fin 2) * 16 ≤ (i 1).val ∧ (i 1).val < win3_3.index _ (1 : Fin 2) * 16 + 16; rw [e1]; omega

/-! ## The array after the last point -/

/-- The output ends holding the whole-array result of the arrays the region found. -/
theorem final (c : Dev nD) : (dat3 V c).arrAt 3 cfg3.N
    = affine (V c main_v4_0 : Arr 10000 10000) (V c main_v5 : Arr 10000 16) (V c main_v2 : Arr 1 16) :=
  (dat3 V c).arrAt_eq_of_cover 3 _ (fun t _ => flushed_eq V c t) cover

end Cert.KernelIdeal.Region3

end
-- ==== Proof.Gcn.lean ====
/-
  The three-layer graph convolution both programs compute, as one function of the eight argument arrays: each layer
  is `A · (H · W) + b` over the one adjacency matrix `A`, with the maximum with zero between layers.
-/
import proofs.«100499_g66838281060773_cont_9to1_m_277_2_alg».proof.Proof.LibLayers

noncomputable section

namespace Cert.Layers

open Idealize.ShloMosaic Idealize.ShloMosaic.ValueIdx Cert.GCN

/-- The whole network: three layers over one adjacency matrix. -/
def gcn (x : Arr 10000 128) (adj : Arr 10000 10000) (W1 : Arr 128 64) (b1 : Row 64) (W2 : Arr 64 64) (b2 : Row 64)
    (W3 : Arr 64 16) (b3 : Row 16) : Arr 10000 16 :=
  affine adj (hidden adj (hidden adj (mm x W1) (asRow b1) W2) (asRow b2) W3) (asRow b3)

end Cert.Layers

end
-- ==== Proof.KernelValue.lean ====
/-
  The kernel's result array as one function of its argument arrays.

  The buffer contents at each boundary of the program are read back to the launch memory: the three host reshapes
  lay each bias vector out as one row; the first region leaves the product of the features and the first weights;
  the second leaves a copy of the adjacency matrix and the first layer's hidden features; the third leaves the
  second layer's hidden features; the last leaves the third layer's result.  Composed, the result array is the
  three-layer network of the arguments.
-/
import proofs.«100499_g66838281060773_cont_9to1_m_277_2_alg».proof.Proof.KernelRun
import proofs.«100499_g66838281060773_cont_9to1_m_277_2_alg».proof.Proof.Region0
import proofs.«100499_g66838281060773_cont_9to1_m_277_2_alg».proof.Proof.Region1
import proofs.«100499_g66838281060773_cont_9to1_m_277_2_alg».proof.Proof.Region2
import proofs.«100499_g66838281060773_cont_9to1_m_277_2_alg».proof.Proof.Region3
import proofs.«100499_g66838281060773_cont_9to1_m_277_2_alg».proof.Proof.LibLayerOps
import proofs.«100499_g66838281060773_cont_9to1_m_277_2_alg».proof.Proof.Gcn
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GCN Cert.Layers
open Idealize.ShloMosaic.Pipeline (Dat)

variable (m : (ℓ : Loc nD τ sig) → Buf (Elt Ideal) ℓ) (ρ : Dev nD → PrngReg)

/-! ## After the host reshapes -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))).trans rfl

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))).trans rfl

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))).trans rfl

theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))).trans rfl

theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))).trans rfl

theorem W1_main_v0 (c : Dev nD) : (W1 m ρ c (Proc.devRef .tc main_v0) : Arr 1 64) = asRow (m ((c : Thread nD τ).loc main_arg3)) := by
  have e : (W1 m ρ c (Proc.devRef .tc main_v0) : Arr 1 64)
      = shapeCast S1x64 (m ((c : Thread nD τ).loc main_arg3)) shapeCasts_S64_S1x64 := by
    show StableHlo.after hostOps0 (W0 m ρ c) (Proc.devRef .tc main_v0) = _
    after_results
    rfl
  rw [e]
  exact HostLayers.reshape_asRow _ _

theorem W1_main_v1 (c : Dev nD) : (W1 m ρ c (Proc.devRef .tc main_v1) : Arr 1 64) = asRow (m ((c : Thread nD τ).loc main_arg5)) := by
  have e : (W1 m ρ c (Proc.devRef .tc main_v1) : Arr 1 64)
      = shapeCast S1x64 (m ((c : Thread nD τ).loc main_arg5)) shapeCasts_S64_S1x64 := by
    show StableHlo.after hostOps0 (W0 m ρ c) (Proc.devRef .tc main_v1) = _
    after_results
    rfl
  rw [e]
  exact HostLayers.reshape_asRow _ _

theorem W1_main_v2 (c : Dev nD) : (W1 m ρ c (Proc.devRef .tc main_v2) : Arr 1 16) = asRow (m ((c : Thread nD τ).loc main_arg7)) := by
  have e : (W1 m ρ c (Proc.devRef .tc main_v2) : Arr 1 16)
      = shapeCast S1x16 (m ((c : Thread nD τ).loc main_arg7)) shapeCasts_S16_S1x16 := by
    show StableHlo.after hostOps0 (W0 m ρ c) (Proc.devRef .tc main_v2) = _
    after_results
    rfl
  rw [e]
  exact HostLayers.reshape_asRow _ _

/-! ## After the first region: the product of the features and the first weights -/

theorem V2_main_arg1 (c : Dev nD) : V2 m ρ c main_arg1 = m ((c : Thread nD τ).loc main_arg1) :=
  (W2_of_ne m ρ c main_arg1 (by decide)).trans (W1_main_arg1 m ρ c)
theorem V2_main_arg4 (c : Dev nD) : V2 m ρ c main_arg4 = m ((c : Thread nD τ).loc main_arg4) :=
  (W2_of_ne m ρ c main_arg4 (by decide)).trans (W1_main_arg4 m ρ c)
theorem V2_main_arg6 (c : Dev nD) : V2 m ρ c main_arg6 = m ((c : Thread nD τ).loc main_arg6) :=
  (W2_of_ne m ρ c main_arg6 (by decide)).trans (W1_main_arg6 m ρ c)
theorem V2_main_v0 (c : Dev nD) : (V2 m ρ c main_v0 : Arr 1 64) = (asRow (m ((c : Thread nD τ).loc main_arg3)) : Arr 1 64) :=
  (W2_of_ne m ρ c main_v0 (by decide)).trans (W1_main_v0 m ρ c)
theorem V2_main_v1 (c : Dev nD) : (V2 m ρ c main_v1 : Arr 1 64) = (asRow (m ((c : Thread nD τ).loc main_arg5)) : Arr 1 64) :=
  (W2_of_ne m ρ c main_v1 (by decide)).trans (W1_main_v1 m ρ c)
theorem V2_main_v2 (c : Dev nD) : (V2 m ρ c main_v2 : Arr 1 16) = (asRow (m ((c : Thread nD τ).loc main_arg7)) : Arr 1 16) :=
  (W2_of_ne m ρ c main_v2 (by decide)).trans (W1_main_v2 m ρ c)

theorem V2_main_v3 (c : Dev nD) : (V2 m ρ c main_v3 : Arr 10000 64) = (mm (m ((c : Thread nD τ).loc main_arg0) : Arr 10000 128) (m ((c : Thread nD τ).loc main_arg2) : Arr 128 64)) := by
  refine ((W2_arr m ρ c 2).trans (Region0.final (V1 m ρ) c)).trans ?_
  show mm (W1 m ρ c (Proc.devRef .tc main_arg0) : Arr 10000 128) (W1 m ρ c (Proc.devRef .tc main_arg2) : Arr 128 64) = _
  rw [W1_main_arg0, W1_main_arg2]

/-! ## After the second region: the adjacency copy and the first layer's hidden features -/

theorem V3_main_v4_0 (c : Dev nD) : V3 m ρ c main_v4_0 = m ((c : Thread nD τ).loc main_arg1) :=
  (W3_arr m ρ c 4).trans ((Region1.final4 (V2 m ρ) c).trans (V2_main_arg1 m ρ c))

theorem V3_main_v4_1 (c : Dev nD) : (V3 m ρ c main_v4_1 : Arr 10000 64) = (hidden (m ((c : Thread nD τ).loc main_arg1) : Arr 10000 10000) (mm (m ((c : Thread nD τ).loc main_arg0) : Arr 10000 128) (m ((c : Thread nD τ).loc main_arg2) : Arr 128 64)) (asRow (m ((c : Thread nD τ).loc main_arg3)) : Arr 1 64) (m ((c : Thread nD τ).loc main_arg4) : Arr 64 64)) := by
  refine ((W3_arr m ρ c 5).trans (Region1.final5 (V2 m ρ) c)).trans ?_
  rw [V2_main_arg1, V2_main_v3, V2_main_v0, V2_main_arg4]

theorem V3_main_arg6 (c : Dev nD) : V3 m ρ c main_arg6 = m ((c : Thread nD τ).loc main_arg6) :=
  (W3_of_ne m ρ c main_arg6 (by decide)).trans (V2_main_arg6 m ρ c)
theorem V3_main_v1 (c : Dev nD) : (V3 m ρ c main_v1 : Arr 1 64) = (asRow (m ((c : Thread nD τ).loc main_arg5)) : Arr 1 64) :=
  (W3_of_ne m ρ c main_v1 (by decide)).trans (V2_main_v1 m ρ c)
theorem V3_main_v2 (c : Dev nD) : (V3 m ρ c main_v2 : Arr 1 16) = (asRow (m ((c : Thread nD τ).loc main_arg7)) : Arr 1 16) :=
  (W3_of_ne m ρ c main_v2 (by decide)).trans (V2_main_v2 m ρ c)

/-! ## After the third region: the second layer's hidden features -/

theorem V4_main_v4_0 (c : Dev nD) : V4 m ρ c main_v4_0 = m ((c : Thread nD τ).loc main_arg1) :=
  (W4_arr m ρ c 0).trans (((dat2 (V3 m ρ) c).arrAt_in 0 rfl _).trans ((A_eq2 (V3 m ρ) c 0).trans (V3_main_v4_0 m ρ c)))

theorem V4_main_v5 (c : Dev nD) : (V4 m ρ c main_v5 : Arr 10000 16) = (hidden (m ((c : Thread nD τ).loc main_arg1) : Arr 10000 10000) (hidden (m ((c : Thread nD τ).loc main_arg1) : Arr 10000 10000) (mm (m ((c : Thread nD τ).loc main_arg0) : Arr 10000 128) (m ((c : Thread nD τ).loc main_arg2) : Arr 128 64)) (asRow (m ((c : Thread nD τ).loc main_arg3)) : Arr 1 64) (m ((c : Thread nD τ).loc main_arg4) : Arr 64 64)) (asRow (m ((c : Thread nD τ).loc main_arg5)) : Arr 1 64) (m ((c : Thread nD τ).loc main_arg6) : Arr 64 16)) := by
  refine ((W4_arr m ρ c 4).trans (Region2.final (V3 m ρ) c)).trans ?_
  rw [V3_main_v4_0, V3_main_v4_1, V3_main_v1, V3_main_arg6]

theorem V4_main_v2 (c : Dev nD) : (V4 m ρ c main_v2 : Arr 1 16) = (asRow (m ((c : Thread nD τ).loc main_arg7)) : Arr 1 16) :=
  (W4_of_ne m ρ c main_v2 (by decide)).trans (V3_main_v2 m ρ c)

/-! ## After the last region: the result -/

/-- The result array after the run is the three-layer network of the argument arrays as launched. -/
theorem result_eq (c : Dev nD) : (W5 m ρ c (Proc.devRef .tc main_v6) : Arr 10000 16)
    = gcn (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine ((W5_arr m ρ c 3).trans (Region3.final (V4 m ρ) c)).trans ?_
  rw [V4_main_v4_0, V4_main_v5, V4_main_v2]
  rfl

end Cert.KernelIdeal.Whole

end
-- ==== Proof.RefValue.lean ====
/-
  The reference's result as the same function of the argument arrays.

  The reference is a straight line of host operations: each layer is two `dot_general`s, the bias broadcast to one
  row and then over all rows and added, and (but for the last layer) the maximum with a broadcast zero.  Read as
  whole arrays at the ideal values these are the matrix product, the bias row added to every row, and the maximum
  with zero: the composed term is the three-layer network of the arguments.
-/
import proofs.«100499_g66838281060773_cont_9to1_m_277_2_alg».proof.Proof.Gen.ReferenceIdeal.Run
import proofs.«100499_g66838281060773_cont_9to1_m_277_2_alg».proof.Proof.LibLayerOps
import proofs.«100499_g66838281060773_cont_9to1_m_277_2_alg».proof.Proof.Gcn

noncomputable section

namespace Cert.ReferenceIdeal.RefValue

open Cert.ReferenceIdeal Cert.ReferenceIdeal.Gen Idealize.ShloMosaic Idealize.ShloMosaic.TcCoe
open Idealize.ShloMosaic.ValueIdx Cert.GCN Cert.Layers Cert.HostLayers

theorem plain0 : dot_S10000x128_S128x64_S10000x64_1_0_0_1_n_n = DotDims.plain 10000 128 64 := rfl
theorem plain1 : dot_S10000x10000_S10000x64_S10000x64_1_0_0_1_n_n = DotDims.plain 10000 10000 64 := rfl
theorem plain2 : dot_S10000x64_S64x64_S10000x64_1_0_0_1_n_n = DotDims.plain 10000 64 64 := rfl
theorem plain3 : dot_S10000x64_S64x16_S10000x16_1_0_0_1_n_n = DotDims.plain 10000 64 16 := rfl
theorem plain4 : dot_S10000x10000_S10000x16_S10000x16_1_0_0_1_n_n = DotDims.plain 10000 10000 16 := rfl

/-- One hidden layer as the host spells it: product with the adjacency matrix, bias on every row, maximum with zero,
    product with the next weights. -/
theorem host_hidden {p : Nat} (adj : FVec Ideal S10000x10000 .f32) (S : FVec Ideal S10000x64 .f32) (b : FVec Ideal S64 .f32)
    (W : FVec Ideal ⟨2, ![64, p]⟩ .f32) (D : DotDims ⟨2, ![10000, 64]⟩ ⟨2, ![64, p]⟩ ⟨2, ![10000, p]⟩)
    (hD : D = DotDims.plain 10000 64 p) :
    (Host.dotGeneral D none (maximumf (addf (Host.dotGeneral dot_S10000x10000_S10000x64_S10000x64_1_0_0_1_n_n none adj S)
        (broadcastInDim S10000x64 ![0, 1] bcast_S1x64_S10000x64_0_1 (broadcastInDim S1x64 ![1] bcast_S64_S1x64_1 b)))
        (broadcastInDim S10000x64 ![] bcast_S_S10000x64 (constant (F := Ideal) S_ .f32 0x00000000#32))) W : Arr 10000 p)
      = hidden adj S (asRow b) W := by
  refine (hostDot_plain _ hD none _ W).trans ?_
  refine congrArg (fun Z : Arr 10000 64 => mm Z (W : Arr 64 p)) ?_
  refine (host_relu _ bcast_S_S10000x64).trans (congrArg relu ?_)
  refine (host_addRow _ b bcast_S64_S1x64_1 bcast_S1x64_S10000x64_0_1).trans ?_
  exact congrArg (fun Z : Arr 10000 64 => addRow Z (asRow b)) (hostDot_plain _ plain1 none adj S)

/-- The reference run's result term is the three-layer network of the argument arrays. -/
theorem result_eq (x : FVec Ideal S10000x128 .f32) (adj : FVec Ideal S10000x10000 .f32) (w1 : FVec Ideal S128x64 .f32)
    (b1 : FVec Ideal S64 .f32) (w2 : FVec Ideal S64x64 .f32) (b2 : FVec Ideal S64 .f32) (w3 : FVec Ideal S64x16 .f32)
    (b3 : FVec Ideal S16 .f32) :
    (addf (Host.dotGeneral dot_S10000x10000_S10000x16_S10000x16_1_0_0_1_n_n none adj (Host.dotGeneral dot_S10000x64_S64x16_S10000x16_1_0_0_1_n_n none (maximumf (addf (Host.dotGeneral dot_S10000x10000_S10000x64_S10000x64_1_0_0_1_n_n none adj (Host.dotGeneral dot_S10000x64_S64x64_S10000x64_1_0_0_1_n_n none (maximumf (addf (Host.dotGeneral dot_S10000x10000_S10000x64_S10000x64_1_0_0_1_n_n none adj (Host.dotGeneral dot_S10000x128_S128x64_S10000x64_1_0_0_1_n_n none x w1)) (broadcastInDim S10000x64 ![0, 1] bcast_S1x64_S10000x64_0_1 (broadcastInDim S1x64 ![1] bcast_S64_S1x64_1 b1))) (broadcastInDim S10000x64 ![] bcast_S_S10000x64 (constant (F := Ideal) S_ .f32 0x00000000#32))) w2)) (broadcastInDim S10000x64 ![0, 1] bcast_S1x64_S10000x64_0_1 (broadcastInDim S1x64 ![1] bcast_S64_S1x64_1 b2))) (broadcastInDim S10000x64 ![] bcast_S_S10000x64 (constant (F := Ideal) S_ .f32 0x00000000#32))) w3)) (broadcastInDim S10000x16 ![0, 1] bcast_S1x16_S10000x16_0_1 (broadcastInDim S1x16 ![1] bcast_S16_S1x16_1 b3)) : Arr 10000 16)
      = gcn x adj w1 b1 w2 b2 w3 b3 := by
  refine (host_addRow _ b3 bcast_S16_S1x16_1 bcast_S1x16_S10000x16_0_1).trans ?_
  refine congrArg (fun Z : Arr 10000 16 => addRow Z (asRow b3)) ?_
  refine (hostDot_plain _ plain4 none adj _).trans ?_
  refine congrArg (fun Z : Arr 10000 16 => mm (adj : Arr 10000 10000) Z) ?_
  refine (host_hidden adj _ b2 w3 _ plain3).trans ?_
  refine congrArg (fun Z : Arr 10000 64 => hidden (adj : Arr 10000 10000) Z (asRow b2) (w3 : Arr 64 16)) ?_
  refine (host_hidden adj _ b1 w2 _ plain2).trans ?_
  exact congrArg (fun Z : Arr 10000 64 => hidden (adj : Arr 10000 10000) Z (asRow b1) (w2 : Arr 64 64))
    (hostDot_plain _ plain0 none x w1)

end Cert.ReferenceIdeal.RefValue

end
-- ==== Proof.lean ====
/-
  The kernel and its reference compute one three-layer graph convolution.

  Both programs multiply the features by a weight matrix, multiply the dense adjacency matrix by the result, add a
  bias to every row and (but for the last layer) take the maximum with zero, three times over.  The kernel does it
  in four pipelined regions — the first product whole, then three passes over blocks of adjacency rows, the first
  of which also writes a half-width copy of the adjacency matrix that the other two read — and the reference as a
  straight line of host operations.  At the ideal values the half-width copy is the matrix itself, every block's
  rows of a layer are the same rows of the whole-array layer, and the blocks tile the rows; so both results are the
  same function `gcn` of the argument arrays (Gcn.lean), with no law of the extended reals needed beyond
  reading each product as its sum: the inputs' finiteness is never used.

  The three frames: the kernel's two are the generated frames; the reference's is its generated run with the result
  dropped.  The idealization rewrote nothing, so there is nothing to preserve.
-/
import proofs.«100499_g66838281060773_cont_9to1_m_277_2_alg».proof.Defs
import proofs.«100499_g66838281060773_cont_9to1_m_277_2_alg».proof.Proof.Gen.Kernel
import proofs.«100499_g66838281060773_cont_9to1_m_277_2_alg».proof.Proof.Gen.Kernel.Skeleton
import proofs.«100499_g66838281060773_cont_9to1_m_277_2_alg».proof.Proof.Gen.Kernel.Launch
import proofs.«100499_g66838281060773_cont_9to1_m_277_2_alg».proof.Proof.Gen.Kernel.Points
import proofs.«100499_g66838281060773_cont_9to1_m_277_2_alg».proof.Proof.Gen.Kernel.Frame
import proofs.«100499_g66838281060773_cont_9to1_m_277_2_alg».proof.Proof.Gen.KernelIdeal
import proofs.«100499_g66838281060773_cont_9to1_m_277_2_alg».proof.Proof.Gen.KernelIdeal.Skeleton
import proofs.«100499_g66838281060773_cont_9to1_m_277_2_alg».proof.Proof.Gen.KernelIdeal.Launch
import proofs.«100499_g66838281060773_cont_9to1_m_277_2_alg».proof.Proof.Gen.KernelIdeal.Points
import proofs.«100499_g66838281060773_cont_9to1_m_277_2_alg».proof.Proof.Gen.KernelIdeal.Frame
import proofs.«100499_g66838281060773_cont_9to1_m_277_2_alg».proof.Proof.Gen.ReferenceIdeal
import proofs.«100499_g66838281060773_cont_9to1_m_277_2_alg».proof.Proof.Gen.ReferenceIdeal.Run
import proofs.«100499_g66838281060773_cont_9to1_m_277_2_alg».proof.Proof.Gen.Pre_finite_inputs
import proofs.«100499_g66838281060773_cont_9to1_m_277_2_alg».proof.Proof.KernelRun
import proofs.«100499_g66838281060773_cont_9to1_m_277_2_alg».proof.Proof.KernelValue
import proofs.«100499_g66838281060773_cont_9to1_m_277_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with their result at the three-layer network of
    those arguments. -/
theorem algebraic : Cert.algebraic_KernelIdeal_ReferenceIdeal := by
  intro m ρ m' ρ' _ hagree
  refine ⟨fun c => Cert.Layers.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
